-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x65 : Shape := ⟨2, ![100000, 65]⟩
abbrev S1600000x1 : Shape := ⟨2, ![1600000, 1]⟩
abbrev S1600000x65 : Shape := ⟨2, ![1600000, 65]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 29
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000x1, .f32⟩
  | .hbm, ⟨11, _⟩ => ⟨S100000x65, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x65, .f32⟩
  | .hbm, ⟨21, _⟩ => ⟨S_, .f32⟩
  | .hbm, ⟨22, _⟩ => ⟨S100000x65, .f32⟩
  | .hbm, ⟨23, _⟩ => ⟨S1600000x1, .i32⟩
  | .hbm, ⟨24, _⟩ => ⟨S100000x65, .f32⟩
  | .hbm, ⟨25, _⟩ => ⟨S100000x64, .f32⟩
  | .hbm, ⟨26, _⟩ => ⟨S100000x1, .f32⟩
  | .hbm, ⟨27, _⟩ => ⟨S1x64, .f32⟩
  | .hbm, ⟨28, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x1 : S_.BroadcastsInDim S100000x1 (![] : Fin 0 → Fin S100000x1.rank)
  concatenates_S100000x64_S100000x1_S100000x65_d1 : Shape.Concatenates [S100000x64, S100000x1] S100000x65 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x65_S1600000x1_S1600000x65_1_0_n_n_0_1_165_wf : GatherDims.WF S100000x65 S1600000x1 S1600000x65 [1] [0] [] [0] [] 1 ![1, 65]
  scatter_S100000x65_S1600000x1_S1600000x65_1_0_0_1_wf : ScatterDims.WF S100000x65 S1600000x1 S1600000x65 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x65_S1600000x1_S1600000x65_1_0_n_n_0_1_165 : GatherDims S100000x65 S1600000x1 S1600000x65 where
  offsetDims := [1]
  collapsedSliceDims := [0]
  operandBatchingDims := []
  startIndicesBatchingDims := []
  startIndexMap := [0]
  indexVectorDim := 1
  sliceSizes := ![1, 65]
  wf := gather_S100000x65_S1600000x1_S1600000x65_1_0_n_n_0_1_165_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibRowGather.lean ====
/-
  THE ROW GATHER READ AT AN INDEX. For a table `T : [N, C]` and an integer array of `E` row numbers, the array
  `T[idx] : [E, C]` is `stablehlo.gather` with offset_dims [1], collapsed_slice_dims [0], start_index_map [0],
  index_vector_dim 1 and slice_sizes [1, C] over the row numbers as `[E, 1]`. Its element `(e, c)` is the table's
  element `(row e, c)`, where `row e` is the `e`-th row number read as a signed integer and clamped into
  `[0, N − 1]` (a gather clamps every start index so that its slice fits). Generic in the sizes `N`, `E`, `C`, the
  width of the index words and the element type.
-/
import Idealize.ShloMosaic.PureOps.Ideal
import Idealize.ShloMosaic.Lib.ValueIdx

noncomputable section

open scoped BigOperators

namespace Cert.RowGather

open Idealize.ShloMosaic Idealize.ShloMosaic.ValueIdx

/-- The dimension numbers of `T[idx]` for `T : [N, C]` and the indices as `[E, 1]`: offset_dims [1],
    collapsed_slice_dims [0], start_index_map [0], index_vector_dim 1, slice_sizes [1, C]. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index read signed and clamped into `[0, N − 1]`. -/
def row {N E w : Nat} (hN : 0 < N) (idx : IVec ⟨2, ![E, 1]⟩ w) (e : Fin E) : Fin N :=
  ⟨min (idx (ix2 e (0 : Fin 1))).toInt.toNat (N - 1), by omega⟩

/-- The row's number is the start index read signed, cut off at `N − 1`. -/
theorem row_val {N E w : Nat} (hN : 0 < N) (idx : IVec ⟨2, ![E, 1]⟩ w) (e : Fin E) :
    (row hN idx e).val = min (idx (ix2 e (0 : Fin 1))).toInt.toNat (N - 1) := rfl

/-- THE ROW GATHER READ AT `(e, c)`: `T[idx][e, c] = T[row e, c]`, the row the `e`-th start index names once read
    signed and clamped into `[0, N − 1]`, at the same column. -/
theorem gather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0
      + (dims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N E C wf).startIndexMap from List.mem_singleton.mpr rfl)]
    have hsi : (dims N E C wf).siIdx (ix2 e c) ⟨List.idxOf (0 : Fin 2) (dims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (dims N E C wf).start (ix2 e c) idx 1 + (dims N E C wf).batchCoord (ix2 e c) 1
      + (dims N E C wf).offCoord (ix2 e c) 1 = c.val
    rw [GatherDims.batchCoord_eq_zero _ _ _ List.not_mem_nil]
    have hstart : (dims N E C wf).start (ix2 e c) idx 1 = 0 := by
      unfold GatherDims.start
      rw [dif_neg (show (1 : Fin 2) ∉ (dims N E C wf).startIndexMap from by
        intro h; exact Nat.one_ne_zero (congrArg Fin.val (List.mem_singleton.mp h)))]
    rw [hstart]
    simp only [Nat.add_zero, Nat.zero_add]
    have hk : (1 : Fin 2) ∈ (dims N E C wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.RowGather

end
-- ==== Proof.LibRowScatterAdd.lean ====
/-
  THE ROW SCATTER-ADD READ AT AN INDEX. For an operand `x : [N, C]`, an integer array of `E` row numbers and updates
  `upd : [E, C]`, the arrays `jax.ops.segment_sum(upd, idx)` and `x.at[idx].add(upd)` are `stablehlo.scatter` with
  an `add` body, update_window_dims [1], inserted_window_dims [0], scatter_dims_to_operand_dims [0] and
  index_vector_dim 1 over the row numbers as `[E, 1]`. Update element `(e, c')` lands on operand element `(n, c)`
  exactly when `c' = c` and the `e`-th row number, read as a signed integer and NOT clamped, is `n`; an update whose
  row number is negative or at least `N` is dropped. So, over the extended reals, the result's element `(n, c)` is
  `x (n, c)` plus the sum of `upd (e, c)` over the edges `e` whose row number is `n`. Generic in the sizes `N`,
  `E`, `C` and the width of the index words.
-/
import Idealize.ShloMosaic.PureOps.Ideal
import Idealize.ShloMosaic.Lib.ValueIdx

noncomputable section

open scoped BigOperators

namespace Cert.RowScatterAdd

open Idealize.ShloMosaic Idealize.ShloMosaic.ValueIdx

/-- The dimension numbers of `jax.ops.segment_sum(upd, idx)` / `zeros.at[idx].add(upd)` for an operand `[N, C]`, the
    indices as `[E, 1]` and updates `[E, C]`: update_window_dims [1], inserted_window_dims [0],
    scatter_dims_to_operand_dims [0], index_vector_dim 1. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e` lands on row `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

section Coordinates
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update `(e, c')` starts at the `e`-th row number, read signed. -/
theorem start_row : (dims N E C wf).start (ix2 e c') idx 0 = (idx (ix2 e (0 : Fin 1))).toInt := by
  unfold ScatterDims.start
  rw [dif_pos (show (0 : Fin 2) ∈ (dims N E C wf).scatterDimsToOperandDims from List.mem_singleton.mpr rfl)]
  have hsi : (dims N E C wf).siIdx (ix2 e c') ⟨List.idxOf (0 : Fin 2) (dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices do not name that axis. -/
theorem start_col : (dims N E C wf).start (ix2 e c') idx 1 = 0 := by
  unfold ScatterDims.start
  rw [dif_neg (show (1 : Fin 2) ∉ (dims N E C wf).scatterDimsToOperandDims from fun h =>
    Nat.one_ne_zero (congrArg Fin.val (List.mem_singleton.mp h)))]

/-- The operand's axes that take a window coordinate are the column axis alone. -/
theorem mem_sKept (a : Fin 2) : a ∈ (dims N E C wf).sKept ↔ a ≠ 0 := by
  simp [ScatterDims.sKept, Shape.kept, List.mem_filter, List.mem_finRange]

/-- On the row axis, an inserted one, the window coordinate is `0`. -/
theorem window_row : (dims N E C wf).window (ix2 e c') 0 = 0 := by
  unfold ScatterDims.window
  rw [dif_neg (fun h => ((mem_sKept wf 0).mp h) rfl)]

/-- On the column axis the window coordinate of update `(e, c')` is its column `c'`. -/
theorem window_col : (dims N E C wf).window (ix2 e c') 1 = c'.val := by
  unfold ScatterDims.window
  rw [dif_pos ((mem_sKept wf 1).mpr (fun h => Nat.one_ne_zero (congrArg Fin.val h)))]
  rfl

end Coordinates

/-- WHERE AN UPDATE LANDS: update element `(e, c')` lands on operand element `(n, c)` exactly when the columns agree
    and the `e`-th row number, read signed and not clamped, is `n`. -/
theorem resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (dims N E C wf).resultIdx? (ix2 e c') idx = some (ix2 n c) ↔ c' = c ∧ hits idx e n := by
  have hs0 := start_row wf idx e c'
  have hs1 := start_col wf idx e c'
  have hw0 := window_row wf e c'
  have hw1 := window_col wf e c'
  have hn : n.val < N := n.isLt
  have hc' : c'.val < C := c'.isLt
  unfold hits
  unfold ScatterDims.resultIdx?
  split
  · rename_i h
    rw [Option.some.injEq]
    constructor
    · intro hf
      have h0 := congrArg Fin.val (congrFun hf 0)
      have h1 := congrArg Fin.val (congrFun hf 1)
      have hb0 := (h 0).1
      simp only [hs0, hw0] at h0 hb0
      simp only [hs1, hw1] at h1
      refine ⟨Fin.ext ?_, ?_⟩
      · change (((0 : Int) + (c'.val : Int)).toNat) = c.val at h1
        omega
      · change (((idx (ix2 e (0 : Fin 1))).toInt + ((0 : Nat) : Int)).toNat) = n.val at h0
        omega
    · rintro ⟨rfl, hhit⟩
      funext a
      refine Fin.ext ?_
      match a with
      | ⟨0, _⟩ =>
        show ((dims N E C wf).start (ix2 e c') idx 0 + ((dims N E C wf).window (ix2 e c') 0 : Nat)).toNat = n.val
        rw [hs0, hw0, hhit]; omega
      | ⟨1, _⟩ =>
        show ((dims N E C wf).start (ix2 e c') idx 1 + ((dims N E C wf).window (ix2 e c') 1 : Nat)).toNat = c'.val
        rw [hs1, hw1]; omega
  · rename_i h
    constructor
    · intro hf; exact absurd hf (by simp)
    · rintro ⟨rfl, hhit⟩
      exfalso; apply h
      intro a
      match a with
      | ⟨0, _⟩ =>
        show 0 ≤ (dims N E C wf).start (ix2 e c') idx 0 + ((dims N E C wf).window (ix2 e c') 0 : Nat) ∧
          (dims N E C wf).start (ix2 e c') idx 0 + ((dims N E C wf).window (ix2 e c') 0 : Nat) < (N : Int)
        rw [hs0, hw0, hhit]; omega
      | ⟨1, _⟩ =>
        show 0 ≤ (dims N E C wf).start (ix2 e c') idx 1 + ((dims N E C wf).window (ix2 e c') 1 : Nat) ∧
          (dims N E C wf).start (ix2 e c') idx 1 + ((dims N E C wf).window (ix2 e c') 1 : Nat) < (C : Int)
        rw [hs1, hw1]; omega

/-- THE ROW SCATTER-ADD READ AT `(n, c)`: the operand's element plus the sum, over the edges `e` whose row number
    (read signed, not clamped) is `n`, of the update's element `(e, c)`. -/
theorem scatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (dims N E C wf) x idx upd (ix2 n c)
      = x (ix2 n c) + ∑ e : Fin E, if hits idx e n then upd (ix2 e c) else 0 := by
  unfold Ideal.hostScatterAdd
  congr 1
  rw [Finset.sum_filter, sum_idx2]
  refine Finset.sum_congr rfl fun e _ => ?_
  have hcongr : ∀ c' : Fin C,
      (if (dims N E C wf).resultIdx? (ix2 e c') idx = some (ix2 n c) then upd (ix2 e c') else 0)
        = if c' = c then (if hits idx e n then upd (ix2 e c') else 0) else 0 := by
    intro c'
    by_cases h1 : c' = c
    · by_cases h2 : hits idx e n
      · rw [if_pos ((resultIdx?_eq_some_iff wf idx e c' n c).mpr ⟨h1, h2⟩), if_pos h1, if_pos h2]
      · rw [if_neg (fun h => h2 ((resultIdx?_eq_some_iff wf idx e c' n c).mp h).2), if_pos h1, if_neg h2]
    · rw [if_neg (fun h => h1 ((resultIdx?_eq_some_iff wf idx e c' n c).mp h).1), if_neg h1]
  rw [Finset.sum_congr rfl (fun c' _ => hcongr c')]
  rw [Finset.sum_ite_eq' Finset.univ c]
  simp only [Finset.mem_univ, if_true]

/-- The same read of the host's accumulating scatter as a program states it (`Host.scatterAdd`) at the ideal instance,
    where it is that exact sum whatever the float format. -/
theorem host_scatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w)
    (upd : FVec Ideal ⟨2, ![E, C]⟩ φ) (n : Fin N) (c : Fin C) :
    Host.scatterAdd (F := Ideal) (dims N E C wf) x idx upd (ix2 n c)
      = x (ix2 n c) + ∑ e : Fin E, if hits idx e n then upd (ix2 e c) else 0 :=
  scatterAdd_apply wf x idx upd n c

end Cert.RowScatterAdd

end
-- ==== Proof.Spec.lean ====
/-
  One layer of a graph network with mean aggregation, over the extended reals, as ONE function of the argument arrays.

  The nodes are the 100000 rows of `x` ([100000, 64]); the 1600000 edges are given by two columns of row numbers,
  `isrc` (the source of each edge) and `idst` (its destination). For a node n:
    * `agg n k`  is the sum, over the edges whose destination number (read signed, not clamped) is n, of entry k of
      the source's row (the source number read signed and clamped into [0, 99999]), added to the zero word;
    * `cnt n`    is the number of those edges, as a sum of ones added to the zero word;
    * the mean of the neighbours is  agg n k / max (cnt n) 1;
    * entry (n, q) of the layer is  max ((mean n · W_l(·, q) + x n · W_r(·, q)) + b q) 0.
  The two float words 0.0 and 1.0 are never evaluated: both programs carry the same words.

  `rowEntry` is one output entry written from what it depends on alone — the node's aggregated row, its count, its own
  row, one column of each weight matrix and one bias entry — which is what a band of rows of a blocked evaluation has
  at hand. `rowEntry_bias_first`: adding the bias before the second product instead of after it gives the same entry,
  by commutativity and associativity of addition on the extended reals (no entry need be finite).
-/
import Idealize.ShloMosaic.PureOps.Ideal
import Idealize.ShloMosaic.Lib.ValueIdx
import proofs.«162965_j86749749444729_2_alg».proof.Proof.LibRowGather
import proofs.«162965_j86749749444729_2_alg».proof.Proof.LibRowScatterAdd

noncomputable section

open scoped BigOperators

namespace Cert.Sage

open Idealize.ShloMosaic Idealize.ShloMosaic.ValueIdx

/-- The float word 0.0, as the extended real it denotes. -/
def Z : EReal := Ideal.ofBits .f32 0x00000000#32
/-- The float word 1.0, as the extended real it denotes. -/
def ONE : EReal := Ideal.ofBits .f32 0x3F800000#32

/-- The sum of the source rows over the edges into node `n`, entry `k`. -/
def agg (x : (⟨2, ![100000, 64]⟩ : Shape).Idx → EReal) (isrc idst : IVec ⟨2, ![1600000, 1]⟩ 32)
    (n : Fin 100000) (k : Fin 64) : EReal :=
  Z + ∑ e : Fin 1600000,
    if Cert.RowScatterAdd.hits idst e n then x (ix2 (Cert.RowGather.row (N := 100000) (by decide) isrc e) k) else 0

/-- The number of edges into node `n`, as a sum of ones. -/
def cnt (idst : IVec ⟨2, ![1600000, 1]⟩ 32) (n : Fin 100000) : EReal :=
  Z + ∑ e : Fin 1600000, if Cert.RowScatterAdd.hits idst e n then ONE else 0

/-- One output entry from the node's aggregated row `a`, its count `c`, its own row `xr`, column q of the two weight
    matrices (`wl`, `wr`) and entry q of the bias (`bq`). -/
def rowEntry (a : Fin 64 → EReal) (c : EReal) (xr wl wr : Fin 64 → EReal) (bq : EReal) : EReal :=
  max (((∑ k : Fin 64, Ideal.div (a k) (max c ONE) * wl k) + ∑ k : Fin 64, xr k * wr k) + bq) Z

/-- The same entry with the bias added before the second product. -/
theorem rowEntry_bias_first (a : Fin 64 → EReal) (c : EReal) (xr wl wr : Fin 64 → EReal) (bq : EReal) :
    max (((∑ k : Fin 64, Ideal.div (a k) (max c ONE) * wl k) + bq) + ∑ k : Fin 64, xr k * wr k) Z
      = rowEntry a c xr wl wr bq := by
  unfold rowEntry
  rw [add_right_comm]

/-- The layer as one function of whole arrays, index by index. -/
def G (x : (⟨2, ![100000, 64]⟩ : Shape).Idx → EReal) (isrc idst : IVec ⟨2, ![1600000, 1]⟩ 32)
    (Wl : (⟨2, ![64, 64]⟩ : Shape).Idx → EReal) (b : (⟨1, ![64]⟩ : Shape).Idx → EReal)
    (Wr : (⟨2, ![64, 64]⟩ : Shape).Idx → EReal) : (⟨2, ![100000, 64]⟩ : Shape).Idx → EReal :=
  fun i => rowEntry (fun k => agg x isrc idst (i 0) k) (cnt idst (i 0)) (fun k => x (ix2 (i 0) k))
    (fun k => Wl (ix2 k (i 1))) (fun k => Wr (ix2 k (i 1))) (b (ix1 (i 1)))

end Cert.Sage

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Body.lean ====
/-
  The one value the kernel body stores, read at an entry.

  Between its loads and its single store the body computes, from the count column `c` ([5000, 1]), the aggregated
  block `a` ([5000, 64]), the block of own rows `x` ([5000, 64]), two weight matrices `Wl`, `Wr` ([64, 64]) and
  the bias row `b` ([1, 64]):
      max (((a / max c 1) · Wl + x · Wr) + b) 0,
  where `max c 1` is broadcast along the rows' entries, `b` along the rows, the two products are matrix products
  into a zero accumulator, and the narrowing format changes in front of them are the identity on extended reals.
  Read at (p, q) this is `rowEntry` of row p of the three blocks, column q of the two matrices and entry q of the
  bias: every elementwise operation reads through at the index, a column broadcast reads the column's entry p, a row
  broadcast reads the row's entry q, and a matrix product reads as the sum over the contracted axis.
-/
import proofs.«162965_j86749749444729_2_alg».proof.Proof.Gen.KernelIdeal.Skeleton
import proofs.«162965_j86749749444729_2_alg».proof.Proof.Spec
import proofs.«162965_j86749749444729_2_alg».proof.Proof.LibDenseLayer
import proofs.«162965_j86749749444729_2_alg».proof.Proof.LibKeepdims
import Idealize.ShloMosaic.Lib.Pipeline.Value
import Idealize.ShloMosaic.Lib.ValueIdx
import Idealize.ShloMosaic.PureOps.Ideal.Laws
noncomputable section
namespace Cert.Sage.Body
open Idealize.ShloMosaic Idealize.ShloMosaic.ValueIdx Cert.KernelIdeal

/-- The denominator: the count column, cast to its own shape, bounded below by a splat `c` and broadcast along the
    64 entries of a row, reads at (p, k) as `max (count p) c`. -/
theorem denom_apply (v0 : FVec Ideal S5000x1 .f32) (c : Ideal .f32) (h : S5000x1.ShapeCasts S5000x1)
    (hb : S5000x1.Broadcasts S5000x64) (p : Fin 5000) (k : Fin 64) :
    broadcastTo S5000x64 (maximumf (shapeCast S5000x1 v0 h) (broadcast S5000x1 c)) hb (ix2 p k)
      = max (v0 (ix2 p (0 : Fin 1))) c := by
  rw [shapeCast_self]
  exact Cert.Keepdims.broadcastTo_a1_ab_apply _ hb p k

/-- The bias: the row [1, 64], cast to its own shape and broadcast along the 5000 rows, reads at (p, q) as its
    entry q. -/
theorem bias_apply (v18 : FVec Ideal S1x64 .f32) (h : S1x64.ShapeCasts S1x64) (hb : S1x64.Broadcasts S5000x64)
    (p : Fin 5000) (q : Fin 64) :
    broadcastTo S5000x64 (shapeCast S1x64 v18 h) hb (ix2 p q) = v18 (ix2 (0 : Fin 1) q) := by
  rw [shapeCast_self]
  refine broadcastTo_apply v18 hb (ix2 p q) (ix2 (0 : Fin 1) q) fun ax => ?_
  match ax with
  | ⟨0, _⟩ => rfl
  | ⟨1, _⟩ =>
    show q.val = if (64 : Nat) = 1 then 0 else q.val
    rw [if_neg (by decide)]

/-- The left index of the product takes the output's row … -/
theorem dot_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contraction position; -/
theorem dot_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right index takes the contraction position … -/
theorem dot_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column. -/
theorem dot_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's matrix product [5000, 64] · [64, 64] into the zero accumulator, read at (p, q). -/
theorem matmul_apply {φ₁ φ₂ : FTy} (L : FVec Ideal S5000x64 φ₁) (R : FVec Ideal S64x64 φ₂) (p : Fin 5000) (q : Fin 64) :
    FloatOps.matmul dot_S5000x64_S64x64_S5000x64_1_0_0_1_n_n none L R (constant S5000x64 .f32 0x00000000#32) (ix2 p q)
      = ∑ k : Fin 64, L (ix2 p k) * R (ix2 k q) :=
  Cert.DenseLayer.matmul_rows_cols dot_S5000x64_S64x64_S5000x64_1_0_0_1_n_n rfl rfl dot_lhs_0 dot_lhs_1 dot_rhs_0 dot_rhs_1 none L R p q

theorem payload_apply (v0 : Vec Ideal S5000x1 .f32) (v4 v9 : Vec Ideal S5000x64 .f32) (v11 v13 : Vec Ideal S64x64 .f32)
    (v18 : Vec Ideal S1x64 .f32) (p : Fin 5000) (q : Fin 64) :
    Cert.KernelIdeal.Gen.k0_pay1 (F := Ideal) v0 v4 v9 v11 v13 v18 (ix2 p q)
      = Cert.Sage.rowEntry (fun k => v4 (ix2 p k)) (v0 (ix2 p (0 : Fin 1))) (fun k => v9 (ix2 p k))
          (fun k => v11 (ix2 k q)) (fun k => v13 (ix2 k q)) (v18 (ix2 (0 : Fin 1) q)) := by
  unfold Cert.KernelIdeal.Gen.k0_pay1 Cert.Sage.rowEntry
  -- the elementwise operations read through at the index; the last one is the maximum with the splat of the word 0.0
  show max ((FloatOps.matmul (F := Ideal) dot_S5000x64_S64x64_S5000x64_1_0_0_1_n_n none _ _ (constant (F := Ideal) S5000x64 .f32 0x00000000#32) (ix2 p q)
      + FloatOps.matmul (F := Ideal) dot_S5000x64_S64x64_S5000x64_1_0_0_1_n_n none _ _ (constant (F := Ideal) S5000x64 .f32 0x00000000#32) (ix2 p q))
      + broadcastTo S5000x64 (shapeCast S1x64 v18 _) _ (ix2 p q)) (Ideal.ofBits .f32 0x00000000#32) = _
  -- the two products as sums over the contracted axis, the bias row at its entry q
  rw [matmul_apply, matmul_apply, bias_apply]
  refine congrArg₂ max (congrArg₂ (· + ·) (congrArg₂ (· + ·) (Finset.sum_congr rfl fun k _ => ?_) rfl) rfl) rfl
  -- one term of the first product: the quotient by the broadcast denominator, times the weight
  show Ideal.div (shapeCast S5000x64 v4 _ (ix2 p k))
      (broadcastTo S5000x64 (maximumf (shapeCast S5000x1 v0 _) (broadcast S5000x1 (Ideal.ofBits .f32 0x3F800000#32))) _ (ix2 p k))
      * v11 (ix2 k q) = _
  rw [shapeCast_self, denom_apply]
  rfl

end Cert.Sage.Body
end
-- ==== Proof.LibVecScatterAdd.lean ====
/-
  THE VECTOR SCATTER-ADD READ AT AN INDEX. For an operand `x : [N]`, an integer array of `E` element numbers and
  updates `upd : [E]`, the arrays `jax.ops.segment_sum(upd, idx)` and `x.at[idx].add(upd)` are `stablehlo.scatter`
  with an `add` body, no update window axis, inserted_window_dims [0], scatter_dims_to_operand_dims [0] and
  index_vector_dim 1 over the element numbers as `[E, 1]`. Update element `e` lands on operand element `n` exactly
  when the `e`-th number, read as a signed integer and NOT clamped, is `n`; an update whose number is negative or at
  least `N` is dropped. So, over the extended reals, the result's element `n` is `x n` plus the sum of `upd e` over
  the `e` whose number is `n`. Generic in the sizes `N`, `E` and the width of the index words.
-/
import Idealize.ShloMosaic.PureOps.Ideal
import Idealize.ShloMosaic.Lib.ValueIdx

noncomputable section

open scoped BigOperators

namespace Cert.VecScatterAdd

open Idealize.ShloMosaic Idealize.ShloMosaic.ValueIdx

/-- The dimension numbers of `jax.ops.segment_sum(upd, idx)` / `zeros.at[idx].add(upd)` for an operand `[N]`, the
    indices as `[E, 1]` and updates `[E]`: no update window axis, inserted_window_dims [0],
    scatter_dims_to_operand_dims [0], index_vector_dim 1. -/
abbrev dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the `e`-th number, read signed. -/
theorem start_elt : (dims N E wf).start (ix1 e) idx 0 = (idx (ix2 e (0 : Fin 1))).toInt := by
  unfold ScatterDims.start
  rw [dif_pos (show (0 : Fin 1) ∈ (dims N E wf).scatterDimsToOperandDims from List.mem_singleton.mpr rfl)]
  have hsi : (dims N E wf).siIdx (ix1 e) ⟨List.idxOf (0 : Fin 1) (dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: it takes no window coordinate. -/
theorem not_mem_sKept (a : Fin 1) : a ∉ (dims N E wf).sKept := by
  simp [ScatterDims.sKept, Shape.kept, List.mem_filter, List.mem_finRange, Fin.fin_one_eq_zero a]

/-- On the operand's axis, an inserted one, the window coordinate is `0`. -/
theorem window_elt : (dims N E wf).window (ix1 e) 0 = 0 := by
  unfold ScatterDims.window
  rw [dif_neg (not_mem_sKept wf 0)]

end Coordinates

/-- WHERE AN UPDATE LANDS: update element `e` lands on operand element `n` exactly when the `e`-th number, read
    signed and not clamped, is `n`. -/
theorem resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (dims N E wf).resultIdx? (ix1 e) idx = some (ix1 n) ↔ hits idx e n := by
  have hs0 := start_elt wf idx e
  have hw0 := window_elt wf e
  have hn : n.val < N := n.isLt
  unfold hits
  unfold ScatterDims.resultIdx?
  split
  · rename_i h
    rw [Option.some.injEq]
    constructor
    · intro hf
      have h0 := congrArg Fin.val (congrFun hf 0)
      have hb0 := (h 0).1
      simp only [hs0, hw0] at h0 hb0
      change (((idx (ix2 e (0 : Fin 1))).toInt + ((0 : Nat) : Int)).toNat) = n.val at h0
      omega
    · intro hhit
      funext a
      refine Fin.ext ?_
      match a with
      | ⟨0, _⟩ =>
        show ((dims N E wf).start (ix1 e) idx 0 + ((dims N E wf).window (ix1 e) 0 : Nat)).toNat = n.val
        rw [hs0, hw0, hhit]; omega
  · rename_i h
    constructor
    · intro hf; exact absurd hf (by simp)
    · intro hhit
      exfalso; apply h
      intro a
      match a with
      | ⟨0, _⟩ =>
        show 0 ≤ (dims N E wf).start (ix1 e) idx 0 + ((dims N E wf).window (ix1 e) 0 : Nat) ∧
          (dims N E wf).start (ix1 e) idx 0 + ((dims N E wf).window (ix1 e) 0 : Nat) < (N : Int)
        rw [hs0, hw0, hhit]; omega

/-- THE VECTOR SCATTER-ADD READ AT `n`: the operand's element plus the sum, over the updates `e` whose number (read
    signed, not clamped) is `n`, of the update's element `e`. -/
theorem scatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (dims N E wf) x idx upd (ix1 n)
      = x (ix1 n) + ∑ e : Fin E, if hits idx e n then upd (ix1 e) else 0 := by
  unfold Ideal.hostScatterAdd
  congr 1
  rw [Finset.sum_filter, sum_idx1]
  refine Finset.sum_congr rfl fun e _ => ?_
  by_cases h2 : hits idx e n
  · rw [if_pos ((resultIdx?_eq_some_iff wf idx e n).mpr h2), if_pos h2]
  · rw [if_neg (fun h => h2 ((resultIdx?_eq_some_iff wf idx e n).mp h)), if_neg h2]

/-- The same read of the host's accumulating scatter as a program states it (`Host.scatterAdd`) at the ideal instance,
    where it is that exact sum whatever the float format. -/
theorem host_scatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w)
    (upd : FVec Ideal ⟨1, ![E]⟩ φ) (n : Fin N) :
    Host.scatterAdd (F := Ideal) (dims N E wf) x idx upd (ix1 n)
      = x (ix1 n) + ∑ e : Fin E, if hits idx e n then upd (ix1 e) else 0 :=
  scatterAdd_apply wf x idx upd n

end Cert.VecScatterAdd

end
-- ==== Proof.HostAgg.lean ====
/-
  The aggregation stage read at an entry, in the three spellings the two programs use.

  * A row gather of `x` ([100000, 64]) followed by a row scatter-add into a zero array: entry (n, k) is `agg n k`.
  * A scatter-add of ones into a zero vector: entry n is `cnt n`.
  * The same two quantities computed in ONE pass: `x` is widened by a column of ones to [100000, 65], its rows are
    gathered and scatter-added into a zero [100000, 65] array; columns 0 … 63 of the result are `agg`, column 64 is `cnt`
    (the gathered entry of the ones column is 1 whichever row the edge names).
  * The two slices that cut the [100000, 65] array into its first 64 columns and its last one.
-/
import Idealize.ShloMosaic.Lib.Pipeline.Value
import proofs.«162965_j86749749444729_2_alg».proof.Proof.Spec
import proofs.«162965_j86749749444729_2_alg».proof.Proof.LibVecScatterAdd

noncomputable section

open scoped BigOperators

namespace Cert.Sage

open Idealize.ShloMosaic Idealize.ShloMosaic.ValueIdx

/-- Rows of `x` gathered at the sources and summed into a zero array at the destinations: entry (n, k). -/
theorem gather_scatter64_apply
    (wfg : GatherDims.WF ⟨2, ![100000, 64]⟩ ⟨2, ![1600000, 1]⟩ ⟨2, ![1600000, 64]⟩ [1] [0] [] [0] [] 1 ![1, 64])
    (wfs : ScatterDims.WF ⟨2, ![100000, 64]⟩ ⟨2, ![1600000, 1]⟩ ⟨2, ![1600000, 64]⟩ [1] [0] [0] 1)
    (z x : FVec Ideal ⟨2, ![100000, 64]⟩ .f32) (isrc idst : IVec ⟨2, ![1600000, 1]⟩ 32)
    (hz : ∀ i, z i = Z) (n : Fin 100000) (k : Fin 64) :
    Host.scatterAdd (F := Ideal) (Cert.RowScatterAdd.dims 100000 1600000 64 wfs) z idst
        (Host.gather (Cert.RowGather.dims 100000 1600000 64 wfg) x isrc) (ix2 n k) = agg x isrc idst n k := by
  rw [Cert.RowScatterAdd.host_scatterAdd_apply, hz]
  unfold agg
  refine congrArg (Z + ·) (Finset.sum_congr rfl fun e _ => ?_)
  rw [Cert.RowGather.gather_apply (by decide)]

/-- Ones summed into a zero vector at the destinations: entry n. -/
theorem count_scatter_apply
    (wfs : ScatterDims.WF ⟨1, ![100000]⟩ ⟨2, ![1600000, 1]⟩ ⟨1, ![1600000]⟩ [] [0] [0] 1)
    (z : FVec Ideal ⟨1, ![100000]⟩ .f32) (o : FVec Ideal ⟨1, ![1600000]⟩ .f32) (idst : IVec ⟨2, ![1600000, 1]⟩ 32)
    (hz : ∀ i, z i = Z) (ho : ∀ i, o i = ONE) (n : Fin 100000) :
    Host.scatterAdd (F := Ideal) (Cert.VecScatterAdd.dims 100000 1600000 wfs) z idst o (ix1 n) = cnt idst n := by
  rw [Cert.VecScatterAdd.host_scatterAdd_apply, hz]
  unfold cnt
  refine congrArg (Z + ·) (Finset.sum_congr rfl fun e _ => ?_)
  rw [ho]
  rfl

/-- The widened array's rows gathered and summed: a column below 64 is `agg`. -/
theorem gather_scatter65_left
    (wfg : GatherDims.WF ⟨2, ![100000, 65]⟩ ⟨2, ![1600000, 1]⟩ ⟨2, ![1600000, 65]⟩ [1] [0] [] [0] [] 1 ![1, 65])
    (wfs : ScatterDims.WF ⟨2, ![100000, 65]⟩ ⟨2, ![1600000, 1]⟩ ⟨2, ![1600000, 65]⟩ [1] [0] [0] 1)
    (hc : Shape.Concatenates [(⟨2, ![100000, 64]⟩ : Shape), ⟨2, ![100000, 1]⟩] ⟨2, ![100000, 65]⟩ (1 : Fin 2))
    (z : FVec Ideal ⟨2, ![100000, 65]⟩ .f32) (x : FVec Ideal ⟨2, ![100000, 64]⟩ .f32) (o : FVec Ideal ⟨2, ![100000, 1]⟩ .f32)
    (isrc idst : IVec ⟨2, ![1600000, 1]⟩ 32) (hz : ∀ i, z i = Z) (n : Fin 100000) (k : Fin 64) :
    Host.scatterAdd (F := Ideal) (Cert.RowScatterAdd.dims 100000 1600000 65 wfs) z idst
        (Host.gather (Cert.RowGather.dims 100000 1600000 65 wfg)
          (concatenate ⟨2, ![100000, 65]⟩ (1 : Fin 2) [⟨⟨2, ![100000, 64]⟩, x⟩, ⟨⟨2, ![100000, 1]⟩, o⟩] hc) isrc)
        (ix2 n (⟨k.val, by omega⟩ : Fin 65)) = agg x isrc idst n k := by
  rw [Cert.RowScatterAdd.host_scatterAdd_apply, hz]
  unfold agg
  refine congrArg (Z + ·) (Finset.sum_congr rfl fun e _ => ?_)
  rw [Cert.RowGather.gather_apply (by decide)]
  refine congrArg (fun v => if Cert.RowScatterAdd.hits idst e n then v else 0) ?_
  exact concatenate_pair_apply_left (t := ⟨2, ![100000, 65]⟩) (1 : Fin 2) x o hc _ rfl
    (ix2 (Cert.RowGather.row (N := 100000) (by decide) isrc e) k) fun b => by
      match b with
      | ⟨0, _⟩ => rfl
      | ⟨1, _⟩ => rfl

/-- The widened array's rows gathered and summed: column 64 is `cnt`. -/
theorem gather_scatter65_right
    (wfg : GatherDims.WF ⟨2, ![100000, 65]⟩ ⟨2, ![1600000, 1]⟩ ⟨2, ![1600000, 65]⟩ [1] [0] [] [0] [] 1 ![1, 65])
    (wfs : ScatterDims.WF ⟨2, ![100000, 65]⟩ ⟨2, ![1600000, 1]⟩ ⟨2, ![1600000, 65]⟩ [1] [0] [0] 1)
    (hc : Shape.Concatenates [(⟨2, ![100000, 64]⟩ : Shape), ⟨2, ![100000, 1]⟩] ⟨2, ![100000, 65]⟩ (1 : Fin 2))
    (z : FVec Ideal ⟨2, ![100000, 65]⟩ .f32) (x : FVec Ideal ⟨2, ![100000, 64]⟩ .f32) (o : FVec Ideal ⟨2, ![100000, 1]⟩ .f32)
    (isrc idst : IVec ⟨2, ![1600000, 1]⟩ 32) (hz : ∀ i, z i = Z) (ho : ∀ i, o i = ONE) (n : Fin 100000) :
    Host.scatterAdd (F := Ideal) (Cert.RowScatterAdd.dims 100000 1600000 65 wfs) z idst
        (Host.gather (Cert.RowGather.dims 100000 1600000 65 wfg)
          (concatenate ⟨2, ![100000, 65]⟩ (1 : Fin 2) [⟨⟨2, ![100000, 64]⟩, x⟩, ⟨⟨2, ![100000, 1]⟩, o⟩] hc) isrc)
        (ix2 n (⟨64, by decide⟩ : Fin 65)) = cnt idst n := by
  rw [Cert.RowScatterAdd.host_scatterAdd_apply, hz]
  unfold cnt
  refine congrArg (Z + ·) (Finset.sum_congr rfl fun e _ => ?_)
  rw [Cert.RowGather.gather_apply (by decide)]
  refine congrArg (fun v => if Cert.RowScatterAdd.hits idst e n then v else 0) ?_
  refine (concatenate_pair_apply_right (t := ⟨2, ![100000, 65]⟩) (1 : Fin 2) x o hc _ rfl rfl
    (ix2 (Cert.RowGather.row (N := 100000) (by decide) isrc e) (0 : Fin 1)) (fun b hb => by
      match b with
      | ⟨0, _⟩ => rfl
      | ⟨1, _⟩ => exact absurd rfl hb) rfl).trans (ho _)

/-- The first 64 columns of a [100000, 65] array, read at (n, k). -/
theorem slice_left_apply {α : Type} (h : (⟨2, ![100000, 65]⟩ : Shape).Slices ![0, 0] ⟨2, ![100000, 64]⟩)
    (v : (⟨2, ![100000, 65]⟩ : Shape).Idx → α) (n : Fin 100000) (k : Fin 64) :
    extractStridedSlice ⟨2, ![100000, 64]⟩ ![0, 0] v h (ix2 n k) = v (ix2 n (⟨k.val, by omega⟩ : Fin 65)) :=
  extractStridedSlice_apply ![0, 0] v h (ix2 n k) _ fun a => by
    match a with
    | ⟨0, _⟩ => show n.val = 0 + n.val; omega
    | ⟨1, _⟩ => show k.val = 0 + k.val; omega

/-- The last column of a [100000, 65] array as a [100000, 1] column, read at (n, u). -/
theorem slice_right_apply {α : Type} (h : (⟨2, ![100000, 65]⟩ : Shape).Slices ![0, 64] ⟨2, ![100000, 1]⟩)
    (v : (⟨2, ![100000, 65]⟩ : Shape).Idx → α) (n : Fin 100000) (u : Fin 1) :
    extractStridedSlice ⟨2, ![100000, 1]⟩ ![0, 64] v h (ix2 n u) = v (ix2 n (⟨64, by decide⟩ : Fin 65)) :=
  extractStridedSlice_apply ![0, 64] v h (ix2 n u) _ fun a => by
    match a with
    | ⟨0, _⟩ => show n.val = 0 + n.val; omega
    | ⟨1, _⟩ => show 64 = 64 + u.val; omega

end Cert.Sage

end
-- ==== Proof.Preamble.lean ====
/-
  What the kernel's call finds in its three computed operands.

  Before the call the host program builds, from the edge array [2, 1600000] and `x`:
    * `srcCol`: row 0 of the edge array (the sources), a negative number wrapped once by + 100000, as a column [1600000, 1];
    * `dstCol`: row 1 (the destinations) as a column [1600000, 1];
    * `aggAug`: `x` widened by a column of ones to [100000, 65], its rows gathered at the sources and summed into a zero
      [100000, 65] array at the destinations;
  and hands the call the first 64 columns of `aggAug` (operand 0), its last column (operand 1) and the bias as a row
  [1, 64] (operand 5). Read at an entry these are `Cert.Sage.agg`, `Cert.Sage.cnt` and the bias entry.
-/
import proofs.«162965_j86749749444729_2_alg».proof.Proof.Gen.KernelIdeal.Frame
import proofs.«162965_j86749749444729_2_alg».proof.Proof.HostAgg
import Idealize.ShloMosaic.Lib.StableHlo.Run
import Idealize.ShloMosaic.Lib.Pipeline.Value
import Idealize.ShloMosaic.PureOps.Ideal

noncomputable section

namespace Cert.Sage.Kernel

open Cert.KernelIdeal Cert.KernelIdeal.Gen Idealize.ShloMosaic Idealize.ShloMosaic.TcCoe Idealize.SL.Sem
open Idealize.ShloMosaic.StableHlo Idealize.ShloMosaic.ValueIdx

/-- Row 0 of the edge array as a vector: the edges' source numbers. -/
def srcRow (ei : IVec S2x1600000 32) : IVec S1600000 32 :=
  shapeCast S1600000 (extractStridedSlice S1x1600000 ![0, 0] ei slices_S2x1600000_S1x1600000_0_0) shapeCasts_S1x1600000_S1600000

/-- The sources as a column, a negative number wrapped once by + 100000. -/
def srcCol (ei : IVec S2x1600000 32) : IVec S1600000x1 32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32))) (srcRow ei))

/-- The destinations (row 1 of the edge array) as a column. -/
def dstCol (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- `x` widened by a column of ones, gathered at the sources, summed into zeros at the destinations. -/
def aggAug (x : FVec Ideal S100000x64 .f32) (ei : IVec S2x1600000 32) : FVec Ideal S100000x65 .f32 :=
  Host.scatterAdd (F := Ideal) scatter_S100000x65_S1600000x1_S1600000x65_1_0_0_1
    (broadcastInDim S100000x65 ![] bcast_S_S100000x65 (constant (F := Ideal) S_ .f32 0x00000000#32)) (dstCol ei)
    (Host.gather gather_S100000x65_S1600000x1_S1600000x65_1_0_n_n_0_1_165
      (concatenate S100000x65 1
        [⟨S100000x64, x⟩, ⟨S100000x1, broadcastInDim S100000x1 ![] bcast_S_S100000x1 (constant (F := Ideal) S_ .f32 0x3F800000#32)⟩]
        concatenates_S100000x64_S100000x1_S100000x65_d1)
      (srcCol ei))

variable (m : (ℓ : Loc nD τ sig) → Buf (Elt Ideal) ℓ)

set_option maxHeartbeats 2000000 in
/-- Operand 0 of the call as the call finds it: the first 64 columns of `aggAug`. -/
theorem V_v16 (c : Dev nD) : (V m c main_v16 : S100000x64.Idx → EReal)
    = extractStridedSlice S100000x64 ![0, 0]
        (aggAug (m ((c : Thread nD τ).loc main_arg0)) (m ((c : Thread nD τ).loc main_arg1))) slices_S100000x65_S100000x64_0_0 := by
  dsimp only [Gen.V, Gen.hostOps0]
  after_results
  rfl

set_option maxHeartbeats 2000000 in
/-- Operand 1 of the call as the call finds it: the last column of `aggAug`. -/
theorem V_v17 (c : Dev nD) : (V m c main_v17 : S100000x1.Idx → EReal)
    = extractStridedSlice S100000x1 ![0, 64]
        (aggAug (m ((c : Thread nD τ).loc main_arg0)) (m ((c : Thread nD τ).loc main_arg1))) slices_S100000x65_S100000x1_0_64 := by
  dsimp only [Gen.V, Gen.hostOps0]
  after_results
  rfl

/-- Operand 5 of the call as the call finds it: the bias as a row. -/
theorem V_v18 (c : Dev nD) : (V m c main_v18 : S1x64.Idx → EReal)
    = shapeCast S1x64 (m ((c : Thread nD τ).loc main_arg3)) shapeCasts_S64_S1x64 := by
  dsimp only [Gen.V, Gen.hostOps0]
  after_results
  rfl

/-- Every entry of the zero array is the zero word. -/
theorem zeros65_apply (i : S100000x65.Idx) :
    broadcastInDim S100000x65 ![] bcast_S_S100000x65 (constant (F := Ideal) S_ .f32 0x00000000#32) i = Cert.Sage.Z :=
  broadcastInDim_apply _ bcast_S_S100000x65 _ i ix0 fun a => a.elim0

/-- Every entry of the ones column is the word 1.0. -/
theorem ones_apply (i : S100000x1.Idx) :
    broadcastInDim S100000x1 ![] bcast_S_S100000x1 (constant (F := Ideal) S_ .f32 0x3F800000#32) i = Cert.Sage.ONE :=
  broadcastInDim_apply _ bcast_S_S100000x1 _ i ix0 fun a => a.elim0

/-- Entry (n, k) of the first 64 columns of `aggAug`: the source rows summed over the edges into n. -/
theorem agg_cols_apply (x : FVec Ideal S100000x64 .f32) (ei : IVec S2x1600000 32) (n : Fin 100000) (k : Fin 64) :
    extractStridedSlice S100000x64 ![0, 0] (aggAug x ei) slices_S100000x65_S100000x64_0_0 (ix2 n k)
      = Cert.Sage.agg x (srcCol ei) (dstCol ei) n k := by
  rw [Cert.Sage.slice_left_apply]
  exact Cert.Sage.gather_scatter65_left gather_S100000x65_S1600000x1_S1600000x65_1_0_n_n_0_1_165_wf
    scatter_S100000x65_S1600000x1_S1600000x65_1_0_0_1_wf concatenates_S100000x64_S100000x1_S100000x65_d1 _ x _
    (srcCol ei) (dstCol ei) zeros65_apply n k

/-- Entry (n, ·) of the last column of `aggAug`: the number of edges into n. -/
theorem cnt_col_apply (x : FVec Ideal S100000x64 .f32) (ei : IVec S2x1600000 32) (n : Fin 100000) (u : Fin 1) :
    extractStridedSlice S100000x1 ![0, 64] (aggAug x ei) slices_S100000x65_S100000x1_0_64 (ix2 n u)
      = Cert.Sage.cnt (dstCol ei) n := by
  rw [Cert.Sage.slice_right_apply]
  exact Cert.Sage.gather_scatter65_right gather_S100000x65_S1600000x1_S1600000x65_1_0_n_n_0_1_165_wf
    scatter_S100000x65_S1600000x1_S1600000x65_1_0_0_1_wf concatenates_S100000x64_S100000x1_S100000x65_d1 _ x _
    (srcCol ei) (dstCol ei) zeros65_apply ones_apply n

/-- The bias as a row [1, 64], read at (u, q), is the bias at q. -/
theorem bias_row_apply (b : FVec Ideal S64 .f32) (u : Fin 1) (q : Fin 64) :
    shapeCast S1x64 b shapeCasts_S64_S1x64 (ix2 u q) = b (ix1 q) :=
  shapeCast_apply b shapeCasts_S64_S1x64 (ix2 u q) (ix1 q) (by
    have hu : u.val = 0 := by omega
    rw [Shape.rowMajor_val_two, Shape.rowMajor_val_one]
    show q.val = u.val * 64 + q.val
    rw [hu, Nat.zero_mul, Nat.zero_add])

end Cert.Sage.Kernel

end
-- ==== Proof.KernelValue.lean ====
/-
  The kernel's result array is the layer `Cert.Sage.G` of its argument arrays.

  The call runs over 20 grid points; point t handles rows 5000·t … 5000·t + 4999. It is handed block t of the
  aggregated sums, of the counts and of `x` (each moving with the output's block: the same block row), the two weight
  matrices and the bias row whole, and writes back block t of the output.
    * `block_entry`: an entry of what the body stores depends only on row p of its three row blocks, column q of the
      weights and entry q of the bias; where those agree with row r of the whole arrays the entry is `G` at (r, q).
    * `written_eq`: so what point t writes back is block t of `G` — every input block is the whole array read at
      row 5000·t + p.
    * `covered`: row r lies in the block of point r / 5000, so the 20 blocks cover the array.
    * `final`, `run`: the array after the run is `G`; the arguments are unchanged.
-/
import proofs.«162965_j86749749444729_2_alg».proof.Proof.Gen.KernelIdeal.Value
import proofs.«162965_j86749749444729_2_alg».proof.Proof.Spec
import proofs.«162965_j86749749444729_2_alg».proof.Proof.Body
import proofs.«162965_j86749749444729_2_alg».proof.Proof.Preamble

set_option maxRecDepth 16384

noncomputable section

namespace Cert.Sage.Kernel

open Cert.KernelIdeal Cert.KernelIdeal.Gen Idealize.ShloMosaic Idealize.ShloMosaic.TcCoe Idealize.SL.Sem
open Idealize.ShloMosaic.ValueIdx
open Idealize.ShloMosaic.Pipeline (Dat)

/-- `rowEntry` depends on its six arguments entrywise. -/
theorem rowEntry_congr {a a' : Fin 64 → EReal} {c c' : EReal} {xr xr' wl wl' wr wr' : Fin 64 → EReal} {bq bq' : EReal}
    (ha : ∀ k, a k = a' k) (hc : c = c') (hx : ∀ k, xr k = xr' k) (hl : ∀ k, wl k = wl' k) (hr : ∀ k, wr k = wr' k)
    (hb : bq = bq') : Cert.Sage.rowEntry a c xr wl wr bq = Cert.Sage.rowEntry a' c' xr' wl' wr' bq' := by
  obtain rfl : a = a' := funext ha
  obtain rfl : xr = xr' := funext hx
  obtain rfl : wl = wl' := funext hl
  obtain rfl : wr = wr' := funext hr
  subst hc hb
  rfl

/-- The layer at (n, q) from row n and column q. -/
theorem G_apply (x : S100000x64.Idx → EReal) (isrc idst : IVec S1600000x1 32) (Wl : S64x64.Idx → EReal) (b : S64.Idx → EReal)
    (Wr : S64x64.Idx → EReal) (n : Fin 100000) (q : Fin 64) :
    Cert.Sage.G x isrc idst Wl b Wr (ix2 n q)
      = Cert.Sage.rowEntry (fun k => Cert.Sage.agg x isrc idst n k) (Cert.Sage.cnt idst n) (fun k => x (ix2 n k))
          (fun k => Wl (ix2 k q)) (fun k => Wr (ix2 k q)) (b (ix1 q)) := rfl

/-- One stored entry from the rows it depends on: if row p of the three row blocks is row n of the aggregated sums,
    the counts and `x`, column q of the two matrix blocks is column q of the weights, and entry q of the bias row is
    entry q of the bias, the body's stored value at (p, q) is the layer at (n, q). -/
theorem block_entry (X0 : Vec Ideal S5000x64 .f32) (X1 : Vec Ideal S5000x1 .f32) (X2 : Vec Ideal S5000x64 .f32)
    (X3 X4 : Vec Ideal S64x64 .f32) (X5 : Vec Ideal S1x64 .f32)
    (x : S100000x64.Idx → EReal) (isrc idst : IVec S1600000x1 32) (Wl : S64x64.Idx → EReal) (b : S64.Idx → EReal)
    (Wr : S64x64.Idx → EReal) (p : Fin 5000) (q : Fin 64) (n : Fin 100000)
    (h0 : ∀ k : Fin 64, X0 (ix2 p k) = Cert.Sage.agg x isrc idst n k)
    (h1 : X1 (ix2 p (0 : Fin 1)) = Cert.Sage.cnt idst n)
    (h2 : ∀ k : Fin 64, X2 (ix2 p k) = x (ix2 n k))
    (h3 : ∀ k : Fin 64, X3 (ix2 k q) = Wl (ix2 k q))
    (h4 : ∀ k : Fin 64, X4 (ix2 k q) = Wr (ix2 k q))
    (h5 : X5 (ix2 (0 : Fin 1) q) = b (ix1 q)) :
    k0_pay1 (F := Ideal) X1 X0 X2 X3 X4 X5 (ix2 p q) = Cert.Sage.G x isrc idst Wl b Wr (ix2 n q) :=
  (Cert.Sage.Body.payload_apply X1 X0 X2 X3 X4 X5 p q).trans
    ((rowEntry_congr h0 h1 h2 h3 h4 h5).trans (G_apply x isrc idst Wl b Wr n q).symm)

theorem hz : (![0, 0] : Fin 2 → Nat) = fun _ => 0 := funext fun a => by fin_cases a <;> rfl

/-- The printed index maps, decided over the 20 points: the three row-blocked inputs move with the output's block
    row, every window sits at block column 0, the weights and the bias at block row 0, and the output's block row is
    the point's number. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (m : (ℓ : Loc nD τ sig) → Buf (Elt Ideal) ℓ) (ρ : Dev nD → PrngReg)

/-- The layer of the arguments as launched on core `c`. -/
abbrev result (c : Dev nD) : S100000x64.Idx → EReal :=
  Cert.Sage.G (m ((c : Thread nD τ).loc main_arg0)) (srcCol (m ((c : Thread nD τ).loc main_arg1)))
    (dstCol (m ((c : Thread nD τ).loc main_arg1))) (m ((c : Thread nD τ).loc main_arg2))
    (m ((c : Thread nD τ).loc main_arg3)) (m ((c : Thread nD τ).loc main_arg4))

/-- Block t of the aggregated sums: row p of the block is row 5000·t + p of the array. -/
theorem agg_block_apply (c : Dev nD) (t : Fin cfg0.N) (p : Fin 5000) (k : Fin 64) (n : Fin 100000)
    (hn : n.val = 5000 * t.val + p.val) :
    (iblk m c 0 t : Vec Ideal S5000x64 .f32) (ix2 p k)
      = Cert.Sage.agg (m ((c : Thread nD τ).loc main_arg0)) (srcCol (m ((c : Thread nD τ).loc main_arg1)))
          (dstCol (m ((c : Thread nD τ).loc main_arg1))) n k := by
  obtain ⟨e00, e01, -, -, -, -, -, -, -, -, -, -, e60, -⟩ := idx_facts t
  have e : ((cfg0.win 0).blk t).view.emb (ix2 p k) = ix2 n k := by
    funext a; apply Fin.ext
    match a with
    | ⟨0, _⟩ => show win0_0.index t (0 : Fin 2) * 5000 + 1 * p.val = n.val; omega
    | ⟨1, _⟩ => show win0_0.index t (1 : Fin 2) * 64 + 1 * k.val = k.val; omega
  unfold iblk
  rw [View.read_apply, e, cast_eq]
  exact (congrFun (V_v16 m c) (ix2 n k)).trans (agg_cols_apply _ _ n k)

/-- Block t of the counts: row p of the block is row 5000·t + p of the column. -/
theorem cnt_block_apply (c : Dev nD) (t : Fin cfg0.N) (p : Fin 5000) (n : Fin 100000)
    (hn : n.val = 5000 * t.val + p.val) :
    (iblk m c 1 t : Vec Ideal S5000x1 .f32) (ix2 p (0 : Fin 1))
      = Cert.Sage.cnt (dstCol (m ((c : Thread nD τ).loc main_arg1))) n := by
  obtain ⟨-, -, e10, e11, -, -, -, -, -, -, -, -, e60, -⟩ := idx_facts t
  have e : ((cfg0.win 1).blk t).view.emb (ix2 p (0 : Fin 1)) = ix2 n (0 : Fin 1) := by
    funext a; apply Fin.ext
    match a with
    | ⟨0, _⟩ => show win0_1.index t (0 : Fin 2) * 5000 + 1 * p.val = n.val; omega
    | ⟨1, _⟩ => show win0_1.index t (1 : Fin 2) * 1 + 1 * 0 = 0; omega
  unfold iblk
  rw [View.read_apply, e, cast_eq]
  exact (congrFun (V_v17 m c) (ix2 n (0 : Fin 1))).trans (cnt_col_apply _ _ n 0)

/-- Block t of `x`: row p of the block is row 5000·t + p of the array. -/
theorem x_block_apply (c : Dev nD) (t : Fin cfg0.N) (p : Fin 5000) (k : Fin 64) (n : Fin 100000)
    (hn : n.val = 5000 * t.val + p.val) :
    (iblk m c 2 t : Vec Ideal S5000x64 .f32) (ix2 p k) = m ((c : Thread nD τ).loc main_arg0) (ix2 n k) := by
  obtain ⟨-, -, -, -, e20, e21, -, -, -, -, -, -, e60, -⟩ := idx_facts t
  have e : ((cfg0.win 2).blk t).view.emb (ix2 p k) = ix2 n k := by
    funext a; apply Fin.ext
    match a with
    | ⟨0, _⟩ => show win0_2.index t (0 : Fin 2) * 5000 + 1 * p.val = n.val; omega
    | ⟨1, _⟩ => show win0_2.index t (1 : Fin 2) * 64 + 1 * k.val = k.val; omega
  unfold iblk
  rw [View.read_apply, e, cast_eq]
  exact congrFun (V_main_arg0 m c) (ix2 n k)

/-- The first weight matrix is staged whole at every point. -/
theorem wl_block_apply (c : Dev nD) (t : Fin cfg0.N) (k q : Fin 64) :
    (iblk m c 3 t : Vec Ideal S64x64 .f32) (ix2 k q) = m ((c : Thread nD τ).loc main_arg2) (ix2 k q) := by
  obtain ⟨-, -, -, -, -, -, e30, e31, -⟩ := idx_facts t
  have e : ((cfg0.win 3).blk t).view.emb (ix2 k q) = ix2 k q := by
    funext a; apply Fin.ext
    match a with
    | ⟨0, _⟩ => show win0_3.index t (0 : Fin 2) * 64 + 1 * k.val = k.val; omega
    | ⟨1, _⟩ => show win0_3.index t (1 : Fin 2) * 64 + 1 * q.val = q.val; omega
  unfold iblk
  rw [View.read_apply, e, cast_eq]
  exact congrFun (V_main_arg2 m c) (ix2 k q)

/-- The second weight matrix is staged whole at every point. -/
theorem wr_block_apply (c : Dev nD) (t : Fin cfg0.N) (k q : Fin 64) :
    (iblk m c 4 t : Vec Ideal S64x64 .f32) (ix2 k q) = m ((c : Thread nD τ).loc main_arg4) (ix2 k q) := by
  obtain ⟨-, -, -, -, -, -, -, -, e40, e41, -⟩ := idx_facts t
  have e : ((cfg0.win 4).blk t).view.emb (ix2 k q) = ix2 k q := by
    funext a; apply Fin.ext
    match a with
    | ⟨0, _⟩ => show win0_4.index t (0 : Fin 2) * 64 + 1 * k.val = k.val; omega
    | ⟨1, _⟩ => show win0_4.index t (1 : Fin 2) * 64 + 1 * q.val = q.val; omega
  unfold iblk
  rw [View.read_apply, e, cast_eq]
  exact congrFun (V_main_arg4 m c) (ix2 k q)

/-- The bias row is staged whole at every point. -/
theorem bias_block_apply (c : Dev nD) (t : Fin cfg0.N) (q : Fin 64) :
    (iblk m c 5 t : Vec Ideal S1x64 .f32) (ix2 (0 : Fin 1) q) = m ((c : Thread nD τ).loc main_arg3) (ix1 q) := by
  obtain ⟨-, -, -, -, -, -, -, -, -, -, e50, e51, -⟩ := idx_facts t
  have e : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 64 + 1 * q.val = q.val; omega
  unfold iblk
  rw [View.read_apply, e, cast_eq]
  exact (congrFun (V_v18 m c) (ix2 (0 : Fin 1) q)).trans (bias_row_apply _ 0 q)

/-- What the body stores at point t, entry y of the block, is the layer at the array index i with the same column
    and row 5000·t + (y's row). -/
theorem point_entry (c : Dev nD) (t : Fin cfg0.N) (y : S5000x64.Idx) (i : S100000x64.Idx)
    (hr : (i 0).val = 5000 * t.val + (y 0).val) (hc : (i 1).val = (y 1).val) :
    k0_pay1 (F := Ideal) (iblk m c 1 t) (iblk m c 0 t) (iblk m c 2 t) (iblk m c 3 t) (iblk m c 4 t) (iblk m c 5 t) y
      = result m c i := by
  obtain ⟨p, q, rfl⟩ : ∃ (p : Fin 5000) (q : Fin 64), y = ix2 p q := ⟨y 0, y 1, eq_ix2 y⟩
  obtain ⟨n, q', rfl⟩ : ∃ (n : Fin 100000) (q' : Fin 64), i = ix2 n q' := ⟨i 0, i 1, eq_ix2 i⟩
  have hn : n.val = 5000 * t.val + p.val := hr
  obtain rfl : q' = q := Fin.ext hc
  exact block_entry (iblk m c 0 t) (iblk m c 1 t) (iblk m c 2 t) (iblk m c 3 t) (iblk m c 4 t) (iblk m c 5 t)
    (m ((c : Thread nD τ).loc main_arg0)) (srcCol (m ((c : Thread nD τ).loc main_arg1)))
    (dstCol (m ((c : Thread nD τ).loc main_arg1))) (m ((c : Thread nD τ).loc main_arg2))
    (m ((c : Thread nD τ).loc main_arg3)) (m ((c : Thread nD τ).loc main_arg4)) p q' n
    (fun k => agg_block_apply m c t p k n hn) (cnt_block_apply m c t p n hn) (fun k => x_block_apply m c t p k n hn)
    (fun k => wl_block_apply m c t k q') (fun k => wr_block_apply m c t k q') (bias_block_apply m c t q')

/-- A block-shaped value `F` written back at point `t` is block `t` of an array `R` as soon as each entry y of `F` is
    `R` at the array index with the same column and row 5000·t + (y's row): that index is where the block's entry y
    lies in the array. -/
theorem written_of_entries (t : Fin cfg0.N) (F : Vec Ideal S5000x64 .f32) (R : S100000x64.Idx → EReal)
    (h : ∀ (y : S5000x64.Idx) (i : S100000x64.Idx), (i 0).val = 5000 * t.val + (y 0).val → (i 1).val = (y 1).val → F y = R i) :
    (cfg0.win 6).cut (grid0.coords t) F = ((cfg0.win 6).blk t).view.read (Elt Ideal) R := by
  obtain ⟨-, -, -, -, -, -, -, -, -, -, -, -, e60, e61⟩ := idx_facts t
  funext j
  rw [View.read_apply]
  refine h _ _ ?_ ?_
  · show win0_6.index t (0 : Fin 2) * 5000 + 1 * (j 0).val = 5000 * t.val + (j 0).val
    omega
  · show win0_6.index t (1 : Fin 2) * 64 + 1 * (j 1).val = (j 1).val
    omega

/-- WHAT POINT `t` WRITES BACK is block `t` of the layer. -/
theorem written_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S5000x64) hz, View.ld_unit_zero (S := S5000x1) hz,
    View.ld_unit_zero (S := S64x64) hz, View.ld_unit_zero (S := S1x64) hz]
  exact written_of_entries t _ _ fun y i hr hc => point_entry m c t y i hr hc

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v19).slice (win0_6.rect t)).set ↔ _
  rw [View.set_slice_whole, Rect.mem_set_unit]
  exact Iff.rfl

/-- Every row lies in the block of the point whose number is the row's quotient by 5000. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, -, -, -, e60, e61⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE ARRAY after the run is the layer of the arguments. -/
theorem final (c : Dev nD) : (dats m 0 c).arrAt 6 cfg0.N = result m c :=
  (dats m 0 c).arrAt_eq_of_cover 6 (result m c) (fun t _ => written_eq m c t) covered

/-- The run: the result array at the layer of the arguments, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Sage.Kernel

end
-- ==== Proof.RefValue.lean ====
/-
  The reference program's result is the layer `Cert.Sage.G` of its argument arrays, entry by entry.

  The program composes the layer one array operation at a time. Read at an entry (n, q), over the extended reals:
    * the rows of `x` gathered at the edges' sources and summed into a zero array at their destinations give, at
      (n, k), the aggregated sum `agg n k`;
    * ones summed into a zero vector at the destinations give, at n, the count `cnt n`; its maximum with the word 1.0,
      broadcast along the row, is the divisor `max (cnt n) 1`;
    * the first product is the sum over k of the mean at (n, k) times `W_l (k, q)`, the bias `b q` is added to it, then
      the second product, the sum over k of `x (n, k)` times `W_r (k, q)`; the result is the maximum of that and the
      word 0.0.
  The bias is added before the second product; `rowEntry_bias_first` regroups.
-/
import proofs.«162965_j86749749444729_2_alg».proof.Proof.Gen.ReferenceIdeal.Read
import proofs.«162965_j86749749444729_2_alg».proof.Proof.Spec
import proofs.«162965_j86749749444729_2_alg».proof.Proof.HostAgg
noncomputable section
namespace Cert.Sage.Ref
open Idealize.ShloMosaic Idealize.ShloMosaic.ValueIdx Cert.ReferenceIdeal Cert.ReferenceIdeal.Read
open scoped BigOperators

/-- The gathered rows summed at the destinations, read at (n, k), is the aggregated sum. -/
theorem sum_apply (x0 : (⟨S100000x64, .f32⟩ : BufTy).Contents (Elt Ideal)) (x1 : (⟨S2x1600000, .i32⟩ : BufTy).Contents (Elt Ideal))
    (n : Fin 100000) (k : Fin 64) :
    val_main_v13 (F := Ideal) x0 x1 (ix2 n k)
      = Cert.Sage.agg x0 (val_main_v9 (F := Ideal) x1) (val_main_v12 (F := Ideal) x1) n k := by
  unfold val_main_v13 val_main_v10
  exact Cert.Sage.gather_scatter64_apply _ _ (val_main_v11 (F := Ideal)) x0 _ _ (fun i => by
    rw [val_main_v11_apply]; rfl) n k

/-- The ones summed at the destinations, read at n, is the count. -/
theorem count_apply (x1 : (⟨S2x1600000, .i32⟩ : BufTy).Contents (Elt Ideal)) (n : Fin 100000) :
    val_main_v17 (F := Ideal) x1 (ix1 n) = Cert.Sage.cnt (val_main_v12 (F := Ideal) x1) n := by
  unfold val_main_v17
  exact Cert.Sage.count_scatter_apply _ (val_main_v15 (F := Ideal)) (val_main_v14 (F := Ideal)) _
    (fun i => by rw [val_main_v15_apply]; rfl) (fun i => by rw [val_main_v14_apply]; rfl) n

/-- The divisor broadcast along a row: at (n, k) it is the count's maximum with the word 1.0. -/
theorem divisor_apply (x1 : (⟨S2x1600000, .i32⟩ : BufTy).Contents (Elt Ideal)) (n : Fin 100000) (k : Fin 64) :
    val_main_v21 (F := Ideal) x1 (ix2 n k) = max (Cert.Sage.cnt (val_main_v12 (F := Ideal) x1) n) Cert.Sage.ONE := by
  have e : idx_main_v20 (idx_main_v21 (ix2 n k)) = ix1 n :=
    funext fun a => by match a with | ⟨0, _⟩ => rfl
  rw [val_main_v21_apply, val_main_v20_apply, e, val_main_v19_apply, count_apply, val_main_v18_apply]
  rfl

/-- The mean of the neighbours at (n, k). -/
theorem mean_apply (x0 : (⟨S100000x64, .f32⟩ : BufTy).Contents (Elt Ideal)) (x1 : (⟨S2x1600000, .i32⟩ : BufTy).Contents (Elt Ideal))
    (n : Fin 100000) (k : Fin 64) :
    val_main_v22 (F := Ideal) x0 x1 (ix2 n k)
      = Ideal.div (Cert.Sage.agg x0 (val_main_v9 (F := Ideal) x1) (val_main_v12 (F := Ideal) x1) n k)
          (max (Cert.Sage.cnt (val_main_v12 (F := Ideal) x1) n) Cert.Sage.ONE) := by
  rw [val_main_v22_apply, sum_apply, divisor_apply]
  rfl

/-- The left operand of either product is read at (n, k). -/
theorem lidx23_eq (n : Fin 100000) (q k : Fin 64) : lidx_main_v23 (ix2 n q) k = ix2 n k :=
  funext fun a => by match a with | ⟨0, _⟩ => rfl | ⟨1, _⟩ => rfl
theorem lidx27_eq (n : Fin 100000) (q k : Fin 64) : lidx_main_v27 (ix2 n q) k = ix2 n k :=
  funext fun a => by match a with | ⟨0, _⟩ => rfl | ⟨1, _⟩ => rfl
/-- The right operand of either product is read at (k, q). -/
theorem ridx23_eq (n : Fin 100000) (q k : Fin 64) : ridx_main_v23 (ix2 n q) k = ix2 k q :=
  funext fun a => by match a with | ⟨0, _⟩ => rfl | ⟨1, _⟩ => rfl
theorem ridx27_eq (n : Fin 100000) (q k : Fin 64) : ridx_main_v27 (ix2 n q) k = ix2 k q :=
  funext fun a => by match a with | ⟨0, _⟩ => rfl | ⟨1, _⟩ => rfl
/-- The bias broadcast along a column is read at q. -/
theorem bidx_eq (n : Fin 100000) (q : Fin 64) : idx_main_v24 (idx_main_v25 (ix2 n q)) = ix1 q :=
  funext fun a => by match a with | ⟨0, _⟩ => rfl

theorem ref_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v29 (F := Ideal) x0 x1 x2 x3 x4
      = Cert.Sage.G x0 (val_main_v9 (F := Ideal) x1) (val_main_v12 (F := Ideal) x1) x2 x3 x4 := by
  funext i
  obtain ⟨n, q, rfl⟩ : ∃ (n : Fin 100000) (q : Fin 64), i = ix2 n q := ⟨i 0, i 1, eq_ix2 i⟩
  -- the operations outermost first: the final maximum with the zero array, the two additions, the two products as
  -- sums over k, the bias's two broadcasts
  rw [val_main_v29_apply, val_main_v28_apply, val_main_v26_apply, val_main_v23_apply, val_main_v27_apply,
    val_main_v25_apply, val_main_v24_apply, val_main_call0_v0_apply, val_main_call0_cst_apply, bidx_eq]
  simp only [lidx23_eq, lidx27_eq, ridx23_eq, ridx27_eq, mean_apply, Ideal.maximumf_def, Ideal.addf_def, Ideal.ofBits_def]
  -- the bias is added before the second product
  exact Cert.Sage.rowEntry_bias_first (fun k => Cert.Sage.agg x0 (val_main_v9 (F := Ideal) x1) (val_main_v12 (F := Ideal) x1) n k)
    (Cert.Sage.cnt (val_main_v12 (F := Ideal) x1) n) (fun k => x0 (ix2 n k)) (fun k => x2 (ix2 k q))
    (fun k => x4 (ix2 k q)) (x3 (ix1 q))

end Cert.Sage.Ref
end
-- ==== Proof.lean ====
/-
  A graph layer with mean aggregation followed by a rectifier, computed two ways, gives the same array over the
  extended reals.

  For node features `x` ([100000, 64]), 1600000 edges (source, destination), weights `W_l`, `W_r` ([64, 64]) and a bias
  `b` (64 entries), entry (n, q) of the layer is
      max (((Σ_k mean(n,k) · W_l(k,q)) + Σ_k x(n,k) · W_r(k,q)) + b(q)) 0,     mean(n,k) = agg(n,k) / max(cnt n, 1),
  where agg(n, ·) is the sum of the source rows over the edges into n and cnt n the number of those edges
  (`Cert.Sage.G`, Proof/Spec.lean).

  One program computes agg and cnt in one pass — `x` widened by a column of ones, gathered at the sources and summed at
  the destinations; the first 64 columns are agg, the last is cnt (Proof/HostAgg.lean, Proof/Preamble.lean) — and then
  evaluates the dense part in 20 bands of 5000 rows, each band from its own rows of agg, cnt and `x` and the whole
  weights and bias (Proof/Body.lean: one stored entry; Proof/KernelValue.lean: the bands cover the array, so the array
  is `G`). The other computes agg and cnt by two separate sums over the edges and the dense part on whole arrays, adding
  the bias before the second product (Proof/RefValue.lean). The two agree entry by entry: the sums over the edges are
  the same sums, the matrix products are the same sums over k, and the two groupings of the three summands are equal
  by commutativity and associativity of addition, which hold on all extended reals — no entry need be finite, so the
  precondition is not used. Both programs build the two index columns by the same operations of the edge array.
-/
import proofs.«162965_j86749749444729_2_alg».proof.Defs
import proofs.«162965_j86749749444729_2_alg».proof.Proof.Gen.Kernel
import proofs.«162965_j86749749444729_2_alg».proof.Proof.Gen.Kernel.Skeleton
import proofs.«162965_j86749749444729_2_alg».proof.Proof.Gen.Kernel.Launch
import proofs.«162965_j86749749444729_2_alg».proof.Proof.Gen.Kernel.Points
import proofs.«162965_j86749749444729_2_alg».proof.Proof.Gen.Kernel.Frame
import proofs.«162965_j86749749444729_2_alg».proof.Proof.Gen.KernelIdeal
import proofs.«162965_j86749749444729_2_alg».proof.Proof.Gen.KernelIdeal.Skeleton
import proofs.«162965_j86749749444729_2_alg».proof.Proof.Gen.KernelIdeal.Launch
import proofs.«162965_j86749749444729_2_alg».proof.Proof.Gen.KernelIdeal.Points
import proofs.«162965_j86749749444729_2_alg».proof.Proof.Gen.KernelIdeal.Frame
import proofs.«162965_j86749749444729_2_alg».proof.Proof.Gen.ReferenceIdeal
import proofs.«162965_j86749749444729_2_alg».proof.Proof.Gen.Pre_finite_inputs
import proofs.«162965_j86749749444729_2_alg».proof.Proof.Gen.KernelIdeal.Value
import proofs.«162965_j86749749444729_2_alg».proof.Proof.Gen.ReferenceIdeal.Run
import proofs.«162965_j86749749444729_2_alg».proof.Proof.Gen.ReferenceIdeal.Read
import proofs.«162965_j86749749444729_2_alg».proof.Proof.KernelValue
import proofs.«162965_j86749749444729_2_alg».proof.Proof.RefValue
import Idealize.ShloMosaic.Adequacy
import Idealize.ShloMosaic.Init

noncomputable section

namespace Cert.Proof

open Idealize.ShloMosaic Idealize.ShloMosaic.TcCoe Idealize.SL.Sem

/-- Both programs wrap a negative source number once and lay the sources out as a column by the same operations. -/
theorem srcCol_eq (x1 : IVec Cert.KernelIdeal.S2x1600000 32) :
    Cert.ReferenceIdeal.Read.val_main_v9 (F := Ideal) x1 = Cert.Sage.Kernel.srcCol x1 := rfl

/-- Both programs lay the destinations out as a column by the same operations. -/
theorem dstCol_eq (x1 : IVec Cert.KernelIdeal.S2x1600000 32) :
    Cert.ReferenceIdeal.Read.val_main_v12 (F := Ideal) x1 = Cert.Sage.Kernel.dstCol x1 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer `G` of the arguments in their result. -/
theorem algebraic : Cert.algebraic_KernelIdeal_ReferenceIdeal := by
  intro m ρ m' ρ' _ hagree
  refine ⟨fun c => Cert.Sage.Kernel.result m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v29_eq (F := Ideal) _ _ _ _ _).trans ?_
  refine (Cert.Sage.Ref.ref_eq _ _ _ _ _).trans ?_
  rw [srcCol_eq, dstCol_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
